-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2x160x160x160 : Shape := ⟨5, ![4, 2, 160, 160, 160]⟩
abbrev S_ : Shape := ⟨0, ![]⟩

class Facts : Prop where
  bcast_S_S4x2x160x160x160 : S_.BroadcastsInDim S4x2x160x160x160 (![] : Fin 0 → Fin S4x2x160x160x160.rank)
  reducesTo_S4x2x160x160x160_S_d0_1_2_3_4 : S4x2x160x160x160.ReducesTo [0, 1, 2, 3, 4] S_
  h_S_ : 0 < S_.numel

variable [Facts]

def fn {F : FTy → Type} [FloatOps F] (main_arg0 : FVec F S4x2x160x160x160 .f32) (main_arg1 : FVec F S4x2x160x160x160 .f32) : IVec S_ 1 :=
  let main_v0 : FVec F S4x2x160x160x160 .f32 := Host.absf main_arg0
  let main_cst : FVec F S_ .f32 := constant S_ .f32 0x7F800000#32
  let main_v1 : FVec F S4x2x160x160x160 .f32 := broadcastInDim S4x2x160x160x160 ![] bcast_S_S4x2x160x160x160 main_cst
  let main_v2 : IVec S4x2x160x160x160 1 := cmpf .olt main_v0 main_v1
  let main_c : IVec S_ 1 := constantI S_ 1 1#1
  let main_v3 : IVec S_ 1 := (fun x v => Host.reduce IntOp.andi x v reducesTo_S4x2x160x160x160_S_d0_1_2_3_4 h_S_) main_v2 main_c
  let main_v4 : FVec F S4x2x160x160x160 .f32 := Host.absf main_arg1
  let main_cst_0 : FVec F S_ .f32 := constant S_ .f32 0x7F800000#32
  let main_v5 : FVec F S4x2x160x160x160 .f32 := broadcastInDim S4x2x160x160x160 ![] bcast_S_S4x2x160x160x160 main_cst_0
  let main_v6 : IVec S4x2x160x160x160 1 := cmpf .olt main_v4 main_v5
  let main_c_1 : IVec S_ 1 := constantI S_ 1 1#1
  let main_v7 : IVec S_ 1 := (fun x v => Host.reduce IntOp.andi x v reducesTo_S4x2x160x160x160_S_d0_1_2_3_4 h_S_) main_v6 main_c_1
  let main_v8 : IVec S_ 1 := andi main_v3 main_v7
  main_v8
-- ==== Kernel.lean ====
abbrev S4x2x160x160x160 : Shape := ⟨5, ![4, 2, 160, 160, 160]⟩
abbrev S256000x128 : Shape := ⟨2, ![256000, 128]⟩
abbrev S2x1x128 : Shape := ⟨3, ![2, 1, 128]⟩
abbrev S8000x128 : Shape := ⟨2, ![8000, 128]⟩
abbrev S1x1x128 : Shape := ⟨3, ![1, 1, 128]⟩
abbrev S1x128 : Shape := ⟨2, ![1, 128]⟩
abbrev S128 : Shape := ⟨1, ![128]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S4x2x160x160x160, .f32⟩
  | .hbm, ⟨1, _⟩ => ⟨S4x2x160x160x160, .f32⟩
  | .hbm, ⟨2, _⟩ => ⟨S256000x128, .f32⟩
  | .hbm, ⟨3, _⟩ => ⟨S256000x128, .f32⟩
  | .hbm, ⟨4, _⟩ => ⟨S2x1x128, .f32⟩
  | .hbm, ⟨5, _⟩ => ⟨S_, .f32⟩
  | .hbm, ⟨6, _⟩ => ⟨S_, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S1x1x128, .f32⟩
  | .local _ .vmem, ⟨5, _⟩ => ⟨S1x1x128, .f32⟩
  | .local _ .vmem, ⟨6, _⟩ => ⟨S1x128, .f32⟩
  | _, _ => ⟨S4x2x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_13 : BitVec 32 := 0#32
  let v28 : BitVec 1 := Scalar.cmpi .ne v27 c0_i32_13
  v28

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x2x160x160x160_S256000x128 : S4x2x160x160x160.ShapeCasts S256000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  reduces_S8000x128_S128 : S8000x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  reducesTo_S2x1x128_S_d0_1_2 : S2x1x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S256000x128.size a
  hwx0_0 : ∀ i : grid0.Coords, EltTy.bits .f32 = 32 ∨ (Rect.block (s := S256000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S256000x128.size a
  hwx0_1 : ∀ i : grid0.Coords, EltTy.bits .f32 = 32 ∨ (Rect.block (s := S256000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S2x1x128.size a
  hwx0_2 : ∀ i : grid0.Coords, EltTy.bits .f32 = 32 ∨ (Rect.block (s := S2x1x128) S1x1x128.size (cc0_transform_2 i) (hinb0_2 i)).WholeWords (EltTy.packing .f32)

variable [Facts₀]

abbrev win0_0 : Pipeline.Window sig grid0 :=
  Pipeline.Window.ofSpec (Memref.whole main_v0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2x160x160x160 : Shape := ⟨5, ![4, 2, 160, 160, 160]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4x2x160x160x160, .f32⟩
  | .hbm, ⟨1, _⟩ => ⟨S4x2x160x160x160, .f32⟩
  | .hbm, ⟨2, _⟩ => ⟨S_, .f32⟩
  | .hbm, ⟨3, _⟩ => ⟨S4x2x160x160x160, .f32⟩
  | .hbm, ⟨4, _⟩ => ⟨S4x2x160x160x160, .i1⟩
  | .hbm, ⟨5, _⟩ => ⟨S_, .f32⟩
  | .hbm, ⟨6, _⟩ => ⟨S4x2x160x160x160, .f32⟩
  | .hbm, ⟨7, _⟩ => ⟨S4x2x160x160x160, .i1⟩
  | .hbm, ⟨8, _⟩ => ⟨S4x2x160x160x160, .i1⟩
  | .hbm, ⟨9, _⟩ => ⟨S4x2x160x160x160, .f32⟩
  | .hbm, ⟨10, _⟩ => ⟨S4x2x160x160x160, .f32⟩
  | .hbm, ⟨11, _⟩ => ⟨S4x2x160x160x160, .f32⟩
  | .hbm, ⟨12, _⟩ => ⟨S4x2x160x160x160, .f32⟩
  | .hbm, ⟨13, _⟩ => ⟨S4x2x160x160x160, .f32⟩
  | .hbm, ⟨14, _⟩ => ⟨S_, .f32⟩
  | .hbm, ⟨15, _⟩ => ⟨S_, .f32⟩
  | _, _ => ⟨S4x2x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S4x2x160x160x160 : S_.BroadcastsInDim S4x2x160x160x160 (![] : Fin 0 → Fin S4x2x160x160x160.rank)
  reducesTo_S4x2x160x160x160_S_d0_1_2_3_4 : S4x2x160x160x160.ReducesTo [0, 1, 2, 3, 4] S_
  h_S_ : 0 < S_.numel

variable [Facts₀]

class Facts : Prop extends Facts₀ where

variable [Facts]
-- ==== Proof.CaseValues.lean ====
/-
  What one grid point leaves behind, case by case, as values.

  The body keeps a running row of 128 lane totals in a scratch row that survives from one grid point to the next.
  A point is in one of three cases, by its position i along the inner grid axis:
    * first (i = 0):     the scratch row is reset to the zero row z and the block's lane sums are added: row = f x p (z)
    * middle (0 < i < 15): the block's lane sums are added to the row the point before left:        row = f x p (row')
    * last (i = 15):     the same update, and the updated row is also copied to the output block:   out = g (f x p (row'))
  where f is the body's one arithmetic update (the lane sums of the block's contributions added to a row) and g the
  re-layout of a [1,128] row as a [1,1,128] block. Each statement below reads the stores a case performs back as the
  value of the one store that covers the buffer; a load that follows a covering store of the same buffer reads that
  store's value. Nothing here depends on what the floats are.
-/
import proofs.«151098_j2740189134901_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- The origin of a two-axis buffer. -/
theorem origin2 : (![0, 0] : Fin 2 → Nat) = fun _ => 0 := funext fun a => by fin_cases a <;> rfl
/-- The origin of a three-axis buffer. -/
theorem origin3 : (![0, 0, 0] : Fin 3 → Nat) = fun _ => 0 := funext fun a => by fin_cases a <;> rfl

/-- FIRST point of a core's sweep: the scratch row ends at the update applied to the zero row the reset stored. -/
theorem scratch_first (c : Dev nD) (i : grid0.Coords) (a2 : Memref sig .tc .vmem S8000x128 .f32) (h2 : a2.IsWhole)
    (a3 : Memref sig .tc .vmem S8000x128 .f32) (h3 : a3.IsWhole) (a4 : Memref sig .tc .vmem S1x1x128 .f32) (h4 : a4.IsWhole)
    (a5 : Memref sig .tc .vmem S1x128 .f32) (h5 : a5.IsWhole) (hc0 : cond0_0 i) (hc1 : ¬cond0_1 i)
    (x0 x1 : Vec F S8000x128 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x128) origin2, View.readCov_unit_zero (S := S1x128) _ origin2]
  simp only [View.readAt_eq_ld, h2.read_unread, h3.read_unread,
    View.ld_unit_zero (S := S8000x128) origin2]

/-- A MIDDLE point: the scratch row ends at the update applied to the row the point before left. -/
theorem scratch_middle (c : Dev nD) (i : grid0.Coords) (a2 : Memref sig .tc .vmem S8000x128 .f32) (h2 : a2.IsWhole)
    (a3 : Memref sig .tc .vmem S8000x128 .f32) (h3 : a3.IsWhole) (a4 : Memref sig .tc .vmem S1x1x128 .f32) (h4 : a4.IsWhole)
    (a5 : Memref sig .tc .vmem S1x128 .f32) (h5 : a5.IsWhole) (hc0 : ¬cond0_0 i) (hc1 : ¬cond0_1 i)
    (x0 x1 : Vec F S8000x128 .f32) (xs0 : Vec F S1x128 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero origin2]
  simp only [View.readAt_eq_ld, h2.read_unread, h3.read_unread, h5.read_unread,
    View.ld_unit_zero (S := S8000x128) origin2, View.ld_unit_zero (S := S1x128) origin2]

/-- The LAST point of a core's sweep: the scratch row is updated as at a middle point, -/
theorem scratch_last (c : Dev nD) (i : grid0.Coords) (a2 : Memref sig .tc .vmem S8000x128 .f32) (h2 : a2.IsWhole)
    (a3 : Memref sig .tc .vmem S8000x128 .f32) (h3 : a3.IsWhole) (a4 : Memref sig .tc .vmem S1x1x128 .f32) (h4 : a4.IsWhole)
    (a5 : Memref sig .tc .vmem S1x128 .f32) (h5 : a5.IsWhole) (hc0 : ¬cond0_0 i) (hc1 : cond0_1 i)
    (x0 x1 : Vec F S8000x128 .f32) (xs0 : Vec F S1x128 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero origin2]
  simp only [View.readAt_eq_ld, h2.read_unread, h3.read_unread, h5.read_unread,
    View.ld_unit_zero (S := S8000x128) origin2, View.ld_unit_zero (S := S1x128) origin2]

/-- and the output block receives the UPDATED row, re-laid as a [1,1,128] block. -/
theorem out_last (c : Dev nD) (i : grid0.Coords) (a2 : Memref sig .tc .vmem S8000x128 .f32) (h2 : a2.IsWhole)
    (a3 : Memref sig .tc .vmem S8000x128 .f32) (h3 : a3.IsWhole) (a4 : Memref sig .tc .vmem S1x1x128 .f32) (h4 : a4.IsWhole)
    (a5 : Memref sig .tc .vmem S1x128 .f32) (h5 : a5.IsWhole) (hc0 : ¬cond0_0 i) (hc1 : cond0_1 i)
    (x0 x1 : Vec F S8000x128 .f32) (xs0 : Vec F S1x128 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero origin3, View.readCov_unit_zero (S := S1x128) _ origin2]
  simp only [View.readAt_eq_ld, h2.read_unread, h3.read_unread, h5.read_unread,
    View.ld_unit_zero (S := S8000x128) origin2, View.ld_unit_zero (S := S1x128) origin2]

end Cert.KernelIdeal.CaseValues

end
-- ==== Proof.Sweep.lean ====
/-
  The sweep over the grid, as a recursion on the point.

  The grid's 32 points are visited in order; point t = 16 c + i is core c's i-th step. Reading the three cases' values
  into the point-by-point description of what the buffers hold gives a recursion with no case names left in it:
    * at a point with t mod 16 = 0 the scratch row becomes f (blocks at t) (zero row);
    * at every other point it becomes   f (blocks at t) (the row after point t - 1);
    * at a point with t mod 16 = 15 the output block receives g of that updated row.
  Here f is the body's update and g the re-layout of a row as a block; both stay folded. Nothing depends on the floats.
-/
import proofs.«151098_j2740189134901_2_alg».proof.Proof.CaseValues

noncomputable section

open Idealize.ShloMosaic Idealize.ShloMosaic.TcCoe Idealize.SL.Sem

namespace Cert.KernelIdeal.Sweep

open Cert.KernelIdeal Cert.KernelIdeal.Gen Cert.KernelIdeal.CaseValues

variable {F : FTy → Type} [FloatOps F]
variable (m : (ℓ : Loc nD τ sig) → Buf (Elt F) ℓ)

/-- The scratch row after point t. -/
abbrev rowAfter (c : Dev nD) (n : ℕ) (h : n < cfg0.N) : Vec F S1x128 .f32 := (outsAt0 m c n h).2

/-- The output's staging block after point t. -/
abbrev outAfter (c : Dev nD) (n : ℕ) (h : n < cfg0.N) : Vec F S1x1x128 .f32 := (outsAt0 m c n h).1

/-- A core's FIRST point restarts the row from zero. -/
theorem row_first (c : Dev nD) (t : Fin cfg0.N) (h0 : t.val % 16 = 0) :
    rowAfter m c t.val t.isLt = k0_pay2 (iblk m c 0 t) (iblk m c 1 t) (k0_pay1 (F := F)) := by
  have hN : cfg0.N = 32 := N_0
  have h1 : ¬t.val % 16 = 15 := by omega
  unfold rowAfter
  rw [outsAt0_A m c t h0 h1]
  exact scratch_first (F := F) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- Every LATER point updates the row the point before left. -/
theorem row_later (c : Dev nD) (t : Fin cfg0.N) (h0 : ¬t.val % 16 = 0) :
    rowAfter m c t.val t.isLt
      = k0_pay2 (iblk m c 0 t) (iblk m c 1 t) (rowAfter m c (t.val - 1) (Nat.lt_of_le_of_lt (Nat.sub_le _ _) t.isLt)) := by
  unfold rowAfter
  by_cases h1 : t.val % 16 = 15
  · rw [outsAt0_C m c t h0 h1]
    exact scratch_last (F := F) c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    exact scratch_middle (F := F) c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- A core's LAST point hands the updated row to the output block. -/
theorem out_at_last (c : Dev nD) (t : Fin cfg0.N) (h1 : t.val % 16 = 15) :
    outAfter m c t.val t.isLt = k0_pay3 (rowAfter m c t.val t.isLt) := by
  have h0 : ¬t.val % 16 = 0 := by omega
  rw [row_later m c t h0]
  unfold outAfter
  rw [outsAt0_C m c t h0 h1]
  exact out_last (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

end Cert.KernelIdeal.Sweep

end
-- ==== Proof.Voxel.lean ====
/-
  One voxel's contribution to the loss, on the extended reals.

  Write a = [p > 1/2] and b = [t > 1/2] for the two binarisations (as bits). The loss adds, over every voxel,
  the squared distance of p from the binarised target — but only at the voxels where the two binarisations disagree.
  The two programs spell that in two ways:
    * by selection:       if a ≠ b then (p - (if b then 1 else 0))² else 0
    * by multiplication:  [a ≠ b] · (p - [b])²      with [·] the bit read as the number 0 or 1.
  The two agree for EVERY extended real p, the infinities included: the bits take two values each, and 0 · x = 0 and
  1 · x = x hold on all of the extended reals. No finiteness of the inputs is used.

  The threshold 1/2 is carried as the f32 word both programs print and is never evaluated: the same word stands on
  both sides.
-/
import Idealize.ShloMosaic.PureOps.Ideal
import Idealize.ShloMosaic.PureOps.Ideal.Laws
import Idealize.ShloMosaic.Lib.IdealHost
import Idealize.ShloMosaic.Lib.ValueIdx

noncomputable section

namespace Cert.Voxel

open Idealize.ShloMosaic

/-- The threshold: the f32 word of one half, read on the extended reals. -/
abbrev half : EReal := Ideal.ofBits .f32 0x3F000000#32

/-- The binarisation [x > 1/2], a bit. -/
abbrev above (x : EReal) : BitVec 1 := Ideal.cmp .ogt x half

/-- The forced value at a voxel by selection: 1 where the target is above the threshold, else 0. -/
abbrev forced (t : EReal) : EReal :=
  Scalar.select (above t) (Ideal.ofBits .f32 0x3F800000#32) (Ideal.ofBits .f32 0x00000000#32)

/-- ONE VOXEL'S CONTRIBUTION, by selection: the squared distance of p from the forced value where the two
    binarisations disagree, zero where they agree. -/
def contrib (p t : EReal) : EReal :=
  Scalar.select (IntOp.xori (above p) (above t)) ((p - forced t) * (p - forced t)) (Ideal.ofBits .f32 0x00000000#32)

/-- A bit is 0 or 1. -/
theorem bit_cases (a : BitVec 1) : a = 0#1 ∨ a = 1#1 := by
  rcases a with ⟨⟨v, hv⟩⟩
  have : v = 0 ∨ v = 1 := by omega
  rcases this with rfl | rfl
  · exact Or.inl rfl
  · exact Or.inr rfl

/-- The same contribution BY MULTIPLICATION with the 0/1 indicators read as numbers: equal to the selection form at
    every pair of extended reals. -/
theorem mul_form (p t : EReal) :
    (((IntOp.cmpi .ne (above p) (above t)).toNat : ℝ) : EReal)
        * ((p - (((above t).toNat : ℝ) : EReal)) * (p - (((above t).toNat : ℝ) : EReal)))
      = contrib p t := by
  unfold contrib forced
  generalize above p = a
  generalize above t = b
  rcases bit_cases a with rfl | rfl <;> rcases bit_cases b with rfl | rfl <;>
    simp [Scalar.select, IntOp.xori, IntOp.cmpi, Ideal.ofBits_zero_f32, Ideal.ofBits_one_f32]

end Cert.Voxel

end
-- ==== Proof.LaneSums.lean ====
/-
  The body's three values read at an index, on the extended reals.

    * the reset row is zero in every lane;
    * the update f x p row adds to lane l of the row the sum, over the 8000 rows r of the block, of the contribution of
      the voxel at (r, l) — the block's lane sum;
    * the re-layout of a [1,128] row as a [1,1,128] block reads the row at the same lane.
-/
import proofs.«151098_j2740189134901_2_alg».proof.Proof.Gen.KernelIdeal.Skeleton
import proofs.«151098_j2740189134901_2_alg».proof.Proof.Voxel
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.LaneSums

open Cert.KernelIdeal Cert.KernelIdeal.Gen Cert.Voxel

/-- The contributions of a block of voxels, element by element (the body's spelling, by selection). -/
def contribBlock (x p : FVec Ideal S8000x128 .f32) : FVec Ideal S8000x128 .f32 :=
  fun y => contrib (x y) (p y)

/-- Summing a [8000,128] block along its rows: lane l of the result is the sum over the 8000 rows of the block at
    (r, l). -/
theorem rowsum_apply (src : FVec Ideal S8000x128 .f32) (h : S8000x128.Reduces [0] S128) (hφ : FKind.Formats .f32)
    (hacc : (0x00000000#32 : BitVec 32) = FKind.add.neutral .f32 hφ) (l : Fin 128) :
    multiReduction .add [0] S128 src 0x00000000#32 h hφ hacc (ix1 l) = ∑ r : Fin 8000, src (ix2 r l) := by
  refine (Ideal.multiReduction_add_single src 0x00000000#32 h hφ hacc (ix1 l)).trans ?_
  refine Finset.sum_congr rfl fun r _ => congrArg src ?_
  funext a
  match a with
  | ⟨0, _⟩ => rfl
  | ⟨1, _⟩ => rfl

/-- The reset row: zero in every lane. -/
theorem reset_apply (y : S1x128.Idx) : k0_pay1 (F := Ideal) y = 0 := by
  unfold k0_pay1
  simp only [shapeCast_self]
  exact Ideal.ofBits_zero_f32

/-- THE UPDATE at lane l: the row's entry plus the block's lane sum of contributions. -/
theorem update_apply (x p : Vec Ideal S8000x128 .f32) (row : Vec Ideal S1x128 .f32) (u : Fin 1) (l : Fin 128) :
    k0_pay2 (F := Ideal) x p row (ix2 u l) = row (ix2 u l) + ∑ r : Fin 8000, contrib (x (ix2 r l)) (p (ix2 r l)) := by
  unfold k0_pay2
  simp only [shapeCast_self]
  refine congrArg (row (ix2 u l) + ·) ?_
  refine (shapeCast_a_1a_apply _ _ u l).trans ?_
  exact rowsum_apply (contribBlock x p) _ _ _ l

/-- The re-layout [1,128] → [1,1,128] reads the row at the same lane. -/
theorem relay_apply (row : Vec Ideal S1x128 .f32) (a u : Fin 1) (l : Fin 128) :
    k0_pay3 (F := Ideal) row (ix3 a u l) = row (ix2 u l) := by
  unfold k0_pay3
  exact shapeCast_ab_1ab_apply _ _ a u l

end Cert.KernelIdeal.LaneSums

end
-- ==== Proof.Rows.lean ====
/-
  The 256000 rows of the flattened arrays, by core, step and row within a block.

  Row x of the flattened [256000, 128] arrays belongs to block t = x / 8000 (rows 8000 t … 8000 t + 7999), and block t
  is step k = t mod 16 of core c = t / 16. So x ↦ (c, k, r) with x = 8000 (16 c + k) + r is a bijection of the rows with
  {0,1} × {0..15} × {0..7999}, and a sum over all rows is the triple sum over cores, steps and rows within a block —
  in any additive commutative monoid, whatever is summed.
-/
import Mathlib.Algebra.BigOperators.Fin
import Mathlib.Algebra.BigOperators.Group.Finset.Basic
import Mathlib.Data.Fintype.BigOperators

namespace Cert.Rows

/-- Row r of block t (taken mod the row count, so that it is a row for every t and r; for t < 32 and r < 8000 the
    remainder changes nothing). -/
def rowOf (t r : ℕ) : Fin 256000 := ⟨(8000 * t + r) % 256000, Nat.mod_lt _ (by omega)⟩

/-- Rows correspond to (core, step, row within the block). -/
def rowsEquiv : Fin 2 × Fin 16 × Fin 8000 ≃ Fin 256000 where
  toFun p := rowOf (16 * p.1.val + p.2.1.val) p.2.2.val
  invFun x := (⟨x.val / 128000, by have := x.isLt; omega⟩, ⟨x.val / 8000 % 16, Nat.mod_lt _ (by omega)⟩,
    ⟨x.val % 8000, Nat.mod_lt _ (by omega)⟩)
  left_inv p := by
    obtain ⟨c, k, r⟩ := p
    have hc := c.isLt; have hk := k.isLt; have hr := r.isLt
    refine Prod.ext (Fin.ext ?_) (Prod.ext (Fin.ext ?_) (Fin.ext ?_))
    · show (8000 * (16 * c.val + k.val) + r.val) % 256000 / 128000 = c.val; omega
    · show (8000 * (16 * c.val + k.val) + r.val) % 256000 / 8000 % 16 = k.val; omega
    · show (8000 * (16 * c.val + k.val) + r.val) % 256000 % 8000 = r.val; omega
  right_inv x := by
    have hx := x.isLt
    refine Fin.ext ?_
    show (8000 * (16 * (x.val / 128000) + x.val / 8000 % 16) + x.val % 8000) % 256000 = x.val
    omega

/-- A sum over all rows is the sum over cores, steps and rows within a block. -/
theorem sum_rows {M : Type*} [AddCommMonoid M] (h : Fin 256000 → M) :
    ∑ x, h x = ∑ c : Fin 2, ∑ k : Fin 16, ∑ r : Fin 8000, h (rowOf (16 * c.val + k.val) r.val) := by
  rw [← Equiv.sum_comp rowsEquiv h, Fintype.sum_prod_type]
  refine Finset.sum_congr rfl fun c _ => ?_
  rw [Fintype.sum_prod_type]
  exact Finset.sum_congr rfl fun k _ => Finset.sum_congr rfl fun r _ => rfl

end Cert.Rows
-- ==== Proof.RunningRow.lean ====
/-
  The running row in closed form, on the extended reals.

  Both inputs reach the region flattened to [256000, 128]; block t of either is rows 8000 t … 8000 t + 7999 (the index
  map sends point t = 16 c + i to block 16 c + i = t). Write S(t, l) for block t's lane sum: the sum over its 8000 rows
  r of the contribution of the voxel at (8000 t + r, l). Then, by induction on the point, the scratch row after point
  n holds in lane l
        S(n₀, l) + S(n₀ + 1, l) + … + S(n, l),        n₀ = n - n mod 16 the first point of n's core,
  because a core's first point restarts from zero (0 + x = x) and every later point adds its block's lane sum to what
  the point before left. At a core's last point (n mod 16 = 15) the output block receives the sixteen-term sum.
-/
import proofs.«151098_j2740189134901_2_alg».proof.Proof.Sweep
import proofs.«151098_j2740189134901_2_alg».proof.Proof.LaneSums
import proofs.«151098_j2740189134901_2_alg».proof.Proof.Rows

noncomputable section

open Idealize.ShloMosaic Idealize.ShloMosaic.TcCoe Idealize.SL.Sem Idealize.ShloMosaic.ValueIdx

namespace Cert.KernelIdeal.Running

open Cert.KernelIdeal Cert.KernelIdeal.Gen Cert.KernelIdeal.Sweep Cert.KernelIdeal.LaneSums Cert.Voxel Cert.Rows

variable (m : (ℓ : Loc nD τ sig) → Buf (Elt Ideal) ℓ)

/-- The flattened predictions, as the region finds them. -/
abbrev predFlat (c : Dev nD) : S256000x128.Idx → EReal := V m c main_v0
/-- The flattened targets, as the region finds them. -/
abbrev targFlat (c : Dev nD) : S256000x128.Idx → EReal := V m c main_v1

/-- Both inputs' index maps send point t to block (t, 0). -/
theorem block_of_point : ∀ t : Fin cfg0.N,
    win0_0.index t (0 : Fin 2) = t.val ∧ win0_0.index t (1 : Fin 2) = 0
      ∧ win0_1.index t (0 : Fin 2) = t.val ∧ win0_1.index t (1 : Fin 2) = 0 :=
  (by decide +kernel : ∀ t : Fin grid0.N,
    win0_0.index t (0 : Fin 2) = t.val ∧ win0_0.index t (1 : Fin 2) = 0
      ∧ win0_1.index t (0 : Fin 2) = t.val ∧ win0_1.index t (1 : Fin 2) = 0)

/-- The predictions' block at point t, at (r, l), is the flattened array at row 8000 t + r. -/
theorem pred_block (c : Dev nD) (t : Fin cfg0.N) (r : Fin 8000) (l : Fin 128) :
    (iblk m c 0 t : Vec Ideal S8000x128 .f32) (ix2 r l) = predFlat m c (ix2 (rowOf t.val r.val) l) := by
  have hN : cfg0.N = 32 := N_0
  have ht := t.isLt
  unfold iblk
  rw [View.read_apply]
  show V m c main_v0 _ = V m c main_v0 _
  refine congrArg (V m c main_v0) (funext fun a => Fin.ext ?_)
  match a with
  | ⟨0, _⟩ =>
    show win0_0.index t 0 * 8000 + 1 * r.val = (8000 * t.val + r.val) % 256000
    rw [(block_of_point t).1]; omega
  | ⟨1, _⟩ =>
    show win0_0.index t 1 * 128 + 1 * l.val = l.val
    rw [(block_of_point t).2.1]; omega

/-- The targets' block likewise. -/
theorem targ_block (c : Dev nD) (t : Fin cfg0.N) (r : Fin 8000) (l : Fin 128) :
    (iblk m c 1 t : Vec Ideal S8000x128 .f32) (ix2 r l) = targFlat m c (ix2 (rowOf t.val r.val) l) := by
  have hN : cfg0.N = 32 := N_0
  have ht := t.isLt
  unfold iblk
  rw [View.read_apply]
  show V m c main_v1 _ = V m c main_v1 _
  refine congrArg (V m c main_v1) (funext fun a => Fin.ext ?_)
  match a with
  | ⟨0, _⟩ =>
    show win0_1.index t 0 * 8000 + 1 * r.val = (8000 * t.val + r.val) % 256000
    rw [(block_of_point t).2.2.1]; omega
  | ⟨1, _⟩ =>
    show win0_1.index t 1 * 128 + 1 * l.val = l.val
    rw [(block_of_point t).2.2.2]; omega

/-- S(t, l): block t's lane sum of contributions. -/
def blockSum (c : Dev nD) (t : ℕ) (l : Fin 128) : EReal :=
  ∑ r : Fin 8000, contrib (predFlat m c (ix2 (rowOf t r.val) l)) (targFlat m c (ix2 (rowOf t r.val) l))

/-- The update at point t adds S(t, l) to lane l of the row. -/
theorem update_at (c : Dev nD) (t : Fin cfg0.N) (row : Vec Ideal S1x128 .f32) (u : Fin 1) (l : Fin 128) :
    k0_pay2 (F := Ideal) (iblk m c 0 t) (iblk m c 1 t) row (ix2 u l) = row (ix2 u l) + blockSum m c t.val l := by
  refine (update_apply (iblk m c 0 t) (iblk m c 1 t) row u l).trans ?_
  refine congrArg (row (ix2 u l) + ·) (Finset.sum_congr rfl fun r _ => ?_)
  rw [pred_block m c t r l, targ_block m c t r l]

/-- THE RUNNING ROW: after point n, lane l holds the lane sums of the blocks from the first point of n's core up to n. -/
theorem row_closed (c : Dev nD) : ∀ (n : ℕ) (h : n < cfg0.N) (u : Fin 1) (l : Fin 128),
    rowAfter m c n h (ix2 u l) = ∑ k ∈ Finset.range (n % 16 + 1), blockSum m c (n - n % 16 + k) l := by
  intro n
  induction n using Nat.strong_induction_on with
  | _ n ih =>
    intro h u l
    by_cases h0 : n % 16 = 0
    · rw [row_first m c ⟨n, h⟩ h0, update_at m c ⟨n, h⟩, reset_apply, zero_add, h0]
      simp
    · rw [row_later m c ⟨n, h⟩ h0, update_at m c ⟨n, h⟩]
      show rowAfter m c (n - 1) _ (ix2 u l) + blockSum m c n l = _
      rw [ih (n - 1) (by omega) _ u l]
      have e1 : (n - 1) % 16 + 1 = n % 16 := by omega
      have e2 : n - 1 - (n - 1) % 16 = n - n % 16 := by omega
      have e3 : n - n % 16 + n % 16 = n := by omega
      rw [e1, e2, Finset.sum_range_succ, e3]

/-- At a core's last point the output block holds, in lane l, the sixteen lane sums of that core's blocks. -/
theorem out_closed (c : Dev nD) (t : Fin cfg0.N) (h1 : t.val % 16 = 15) (a u : Fin 1) (l : Fin 128) :
    outAfter m c t.val t.isLt (ix3 a u l) = ∑ k ∈ Finset.range 16, blockSum m c (t.val - 15 + k) l := by
  rw [out_at_last m c t h1, relay_apply, row_closed m c t.val t.isLt u l, h1]

end Cert.KernelIdeal.Running

end
-- ==== Proof.KernelValue.lean ====
/-
  What the kernel's program computes, on the extended reals.

  The output array is [2, 1, 128]: block c of it is written back once, after core c's last point (point 16 c + 15),
  and then holds in lane l the sixteen lane sums S(16 c, l) + … + S(16 c + 15, l) of core c's blocks. The two blocks
  cover the array, so the array ends at
        partials (c, u, l) = Σ_{k < 16} S(16 c + k, l).
  The host line after the region sums that array from zero: the program's result is 0 + Σ_{(c,u,l)} partials (c, u, l).
-/
import proofs.«151098_j2740189134901_2_alg».proof.Proof.RunningRow
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Sweep Cert.KernelIdeal.Running Cert.Voxel Cert.Rows

variable (m : (ℓ : Loc nD τ sig) → Buf (Elt Ideal) ℓ) (ρ : Dev nD → PrngReg)

/-- The per-core, per-lane partial sums the output array ends holding. -/
def partials (c : Dev nD) : S2x1x128.Idx → EReal :=
  fun j => ∑ k ∈ Finset.range 16, blockSum m c (16 * (j 0).val + k) (j 2)

/-- The output's index map sends point t to block (t / 16, 0, 0). -/
theorem out_block_of_point : ∀ t : Fin cfg0.N,
    win0_2.index t (0 : Fin 3) = t.val / 16 ∧ win0_2.index t (1 : Fin 3) = 0 ∧ win0_2.index t (2 : Fin 3) = 0 :=
  (by decide +kernel : ∀ t : Fin grid0.N,
    win0_2.index t (0 : Fin 3) = t.val / 16 ∧ win0_2.index t (1 : Fin 3) = 0 ∧ win0_2.index t (2 : Fin 3) = 0)

/-- WHAT A WRITE-BACK WRITES: at a core's last point, that core's block of `partials`. -/
theorem flushed_eq (c : Dev nD) (t : Fin cfg0.N) (hf : (cfg0.win 2).flush t = true) :
    (dats m 0 c).flushed 2 t = ((cfg0.win 2).blk t).view.read (Elt Ideal) (partials m c) := by
  have h15 : t.val % 16 = 15 := (flush0_2 t).mp hf
  have hN : cfg0.N = 32 := N_0
  have ht := t.isLt
  show (cfg0.win 2).cut (grid0.coords t) ((dats m 0 c).after 2 t) = _
  rw [after0_2]
  funext y
  rw [View.read_apply]
  show (outAfter m c t.val t.isLt : Vec Ideal S1x1x128 .f32) y = partials m c (((cfg0.win 2).blk t).view.emb y)
  obtain ⟨a, u, l, rfl⟩ : ∃ (a u : Fin 1) (l : Fin 128), y = ix3 a u l := ⟨y 0, y 1, y 2, eq_ix3 y⟩
  rw [out_closed m c t h15 a u l]
  unfold partials
  have e0 : ((((cfg0.win 2).blk t).view.emb (ix3 a u l)) 0).val = t.val / 16 := by
    show win0_2.index t 0 * 1 + 1 * a.val = t.val / 16
    rw [(out_block_of_point t).1]; omega
  have e2 : (((cfg0.win 2).blk t).view.emb (ix3 a u l)) 2 = l := by
    refine Fin.ext ?_
    show win0_2.index t 2 * 128 + 1 * l.val = l.val
    rw [(out_block_of_point t).2.2]; omega
  rw [e0, e2]
  have e3 : t.val - 15 = 16 * (t.val / 16) := by omega
  rw [e3]

/-- The two write-backs cover the output array: index (c, u, l) is in the block point 16 c + 15 writes. -/
theorem covered (c : Dev nD) (i : S2x1x128.Idx) :
    ∃ t : Fin cfg0.N, (cfg0.win 2).flush t = true ∧ i ∈ ((cfg0.win 2).blk t).view.set := by
  have hN : cfg0.N = 32 := N_0
  have h0 : (i 0).val < 2 := (i 0).isLt
  have h1 : (i 1).val < 1 := (i 1).isLt
  have h2 : (i 2).val < 128 := (i 2).isLt
  have hlt : 16 * (i 0).val + 15 < cfg0.N := by omega
  refine ⟨⟨16 * (i 0).val + 15, hlt⟩, (flush0_2 _).mpr (by show (16 * (i 0).val + 15) % 16 = 15; omega), ?_⟩
  show i ∈ ((View.whole main_v2).slice (win0_2.rect ⟨16 * (i 0).val + 15, hlt⟩)).set
  rw [View.set_slice_whole, Rect.mem_set_unit]
  intro a
  obtain ⟨f0, f1, f2⟩ := out_block_of_point ⟨16 * (i 0).val + 15, hlt⟩
  match a with
  | ⟨0, _⟩ =>
    show win0_2.index _ (0 : Fin 3) * 1 ≤ (i 0).val ∧ (i 0).val < win0_2.index _ (0 : Fin 3) * 1 + 1
    rw [f0]; show (16 * (i 0).val + 15) / 16 * 1 ≤ (i 0).val ∧ (i 0).val < (16 * (i 0).val + 15) / 16 * 1 + 1; omega
  | ⟨1, _⟩ =>
    show win0_2.index _ (1 : Fin 3) * 1 ≤ (i 1).val ∧ (i 1).val < win0_2.index _ (1 : Fin 3) * 1 + 1
    rw [f1]; omega
  | ⟨2, _⟩ =>
    show win0_2.index _ (2 : Fin 3) * 128 ≤ (i 2).val ∧ (i 2).val < win0_2.index _ (2 : Fin 3) * 128 + 128
    rw [f2]; omega

/-- THE OUTPUT ARRAY after the region: the partial sums. -/
theorem out_array (c : Dev nD) : (dats m 0 c).arrAt 2 cfg0.N = partials m c :=
  (dats m 0 c).arrAt_eq_of_cover 2 (partials m c) (flushed_eq m c) (covered c)

end Cert.KernelIdeal.Total

end
-- ==== Proof.LibSumIdx3.lean ====
/-
  A sum over a rank-3 index set is the triple sum over its coordinates.

  General (any additive commutative monoid, any extents): the rank-3 companion of the library's rank-2
  `ValueIdx.idxEquiv2` / `ValueIdx.sum_idx2`.
-/
import Idealize.ShloMosaic.Lib.ValueIdx

namespace Cert.Lib.SumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Lib.SumIdx3
-- ==== Proof.KernelRun.lean ====
/-
  The kernel's program against the plain sum over all voxels.

  Three re-indexings, none of which looks at what is summed (sums in an additive commutative monoid):
    * the output array's entries are Σ_{k<16} Σ_{r<8000} over core c's blocks, so summing it over (c, u, l) is the sum
      over cores, steps, rows within a block and lanes — every (row, lane) of the flattened [256000, 128] arrays once
      (`Rows.sum_rows`: row = 8000 (16 c + k) + r);
    * the flattened arrays are the arguments re-shaped: the flattened index set corresponds one-to-one with the
      [4, 2, 160, 160, 160] index set, and a sum does not see the correspondence;
    * the host's last line is zero plus the sum of the output array's entries.
  So the program's result is 0 + Σ_j contrib (pred j) (target j) over the arguments' own index set.
-/
import proofs.«151098_j2740189134901_2_alg».proof.Proof.KernelValue
import proofs.«151098_j2740189134901_2_alg».proof.Proof.LibSumIdx3

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Sweep Cert.KernelIdeal.Running Cert.Voxel Cert.Rows
open Cert.Lib.SumIdx3

variable (m : (ℓ : Loc nD τ sig) → Buf (Elt Ideal) ℓ) (ρ : Dev nD → PrngReg)

/-- Summing the output array is summing every (row, lane) of the flattened arrays. -/
theorem sum_partials (c : Dev nD) :
    ∑ j : S2x1x128.Idx, partials m c j = ∑ i : S256000x128.Idx, contrib (predFlat m c i) (targFlat m c i) := by
  rw [sum_idx3, sum_idx2, sum_rows]
  refine Finset.sum_congr rfl fun c' _ => ?_
  rw [Fin.sum_univ_one]
  unfold partials blockSum
  simp only [Finset.sum_range]
  rw [Finset.sum_comm]
  refine Finset.sum_congr rfl fun k _ => ?_
  rw [Finset.sum_comm]

/-- The flattened predictions are the first argument re-shaped. -/
theorem predFlat_eq (c : Dev nD) :
    predFlat m c = shapeCast S256000x128 (m ((c : Thread nD τ).loc main_arg0)) Gen.shapeCasts_S4x2x160x160x160_S256000x128 := by
  show StableHlo.after hostOps0 (fun b => m (c, b)) (Proc.devRef .tc main_v0) = _
  after_results
  rfl

/-- The flattened targets are the second argument re-shaped. -/
theorem targFlat_eq (c : Dev nD) :
    targFlat m c = shapeCast S256000x128 (m ((c : Thread nD τ).loc main_arg1)) Gen.shapeCasts_S4x2x160x160x160_S256000x128 := by
  show StableHlo.after hostOps0 (fun b => m (c, b)) (Proc.devRef .tc main_v1) = _
  after_results
  rfl

/-- Summing over the flattened index set is summing over the arguments' own index set. -/
theorem sum_flat (c : Dev nD) :
    ∑ i : S256000x128.Idx, contrib (predFlat m c i) (targFlat m c i)
      = ∑ j : S4x2x160x160x160.Idx, contrib (m ((c : Thread nD τ).loc main_arg0) j) (m ((c : Thread nD τ).loc main_arg1) j) := by
  rw [predFlat_eq, targFlat_eq]
  exact Equiv.sum_comp (Shape.reshapeEquiv Gen.shapeCasts_S4x2x160x160x160_S256000x128)
    (fun j => contrib (m ((c : Thread nD τ).loc main_arg0) j) (m ((c : Thread nD τ).loc main_arg1) j))

/-- The program's result, as a function of the argument arrays. -/
def result (c : Dev nD) : Buf (Elt Ideal) ((c : Thread nD τ).loc main_v3) :=
  fun _ => Ideal.ofBits .f32 0x00000000#32
    + ∑ j : S4x2x160x160x160.Idx, contrib (m ((c : Thread nD τ).loc main_arg0) j) (m ((c : Thread nD τ).loc main_arg1) j)

/-- THE HOST'S LAST LINE sums the output array from zero: the program's result. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v2)
      = partials m c :=
    (Pipeline.withArrays_arr spec0 launch0.win.arr_inj c _ _ 2).trans (out_array m c)
  rw [hA]
  funext i
  simp only [Host.reduceAdd, Ideal.hostReduceAdd_def]
  refine (Ideal.hostReduceAdd_total Gen.reducesTo_S2x1x128_S_d0_1_2 (fun b => b.elim0) (partials m c) _ i).trans ?_
  rw [sum_partials, sum_flat]
  rfl

/-- THE RUN, READ: every weakly fair execution of the kernel's program terminates with its result at
    0 + Σ_j contrib (pred j) (target j) and both arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Total

end
-- ==== Proof.RefValue.lean ====
/-
  What the reference computes, on the extended reals.

  Element by element the reference forms [a ≠ b] · (p - [b])² with the indicators converted to numbers — the
  multiplication form of a voxel's contribution — and sums every element from zero. So its result is
        0 + Σ_j contrib (pred j) (target j)
  over the [4, 2, 160, 160, 160] index set, with the contribution in its selection form (`Voxel.mul_form`).
-/
import proofs.«151098_j2740189134901_2_alg».proof.Proof.Gen.ReferenceIdeal.Read
import proofs.«151098_j2740189134901_2_alg».proof.Proof.Voxel

noncomputable section

open Idealize.ShloMosaic Idealize.ShloMosaic.TcCoe Idealize.SL.Sem

namespace Cert.ReferenceIdeal.RefValue

open Cert.ReferenceIdeal Cert.ReferenceIdeal.Read Cert.Voxel

/-- One element of the reference's product array is that voxel's contribution. -/
theorem term_apply (x0 x1 : (⟨S4x2x160x160x160, .f32⟩ : BufTy).Contents (Elt Ideal)) (j : S4x2x160x160x160.Idx) :
    val_main_v9 (F := Ideal) x0 x1 j = contrib (x0 j) (x1 j) := by
  simp only [val_main_v9_apply, val_main_v8_apply, val_main_v7_apply, val_main_v6_apply, val_main_v5_apply,
    val_main_v4_apply, val_main_v3_apply, val_main_v2_apply, val_main_v1_apply, val_main_v0_apply,
    val_main_cst_apply, val_main_cst_0_apply]
  exact mul_form (x0 j) (x1 j)

/-- THE REFERENCE'S RESULT: zero plus the sum of every voxel's contribution. -/
theorem result_eq (x0 x1 : (⟨S4x2x160x160x160, .f32⟩ : BufTy).Contents (Elt Ideal)) :
    val_main_v10 (F := Ideal) x0 x1
      = fun _ => Ideal.ofBits .f32 0x00000000#32 + ∑ j : S4x2x160x160x160.Idx, contrib (x0 j) (x1 j) := by
  funext i
  rw [val_main_v10_apply]
  exact congrArg (Ideal.ofBits .f32 0x00000000#32 + ·) (Finset.sum_congr rfl fun j _ => term_apply x0 x1 j)

end Cert.ReferenceIdeal.RefValue

end
-- ==== Proof.lean ====
/-
  A masked squared-error loss over a [4, 2, 160, 160, 160] volume: the tiled kernel against the plain sum.

  With a = [pred > 1/2] and b = [target > 1/2], a voxel contributes (pred - [b])² where a ≠ b and nothing where a = b;
  the loss is the sum of the contributions over all 32,768,000 voxels.

  The reference forms the contribution by multiplying with the indicator [a ≠ b] and sums everything from zero. The
  kernel forms it by selection, flattens the volume to [256000, 128], and sweeps it in 32 blocks of 8000 rows, two
  cores of 16 steps each: a step adds its block's 128 lane sums to a running row, a core's first step restarts the row
  from zero, its last step writes the row out, and the host finally sums the two rows' 256 entries from zero.

  On the extended reals these are the same number:
    * selection and multiplication by a 0/1 indicator agree at every extended real (0 · x = 0, 1 · x = x): Voxel;
    * the running row after a step is the sum of the lane sums so far (induction on the step; 0 + x = x):
      CaseValues, Sweep, LaneSums, RunningRow;
    * the output array is the two cores' rows (the two write-backs cover it), and the host sums it: KernelValue;
    * every (row, lane) of the flattened arrays is counted exactly once, and flattening is a one-to-one
      re-indexing, which a sum does not see: Rows, LibSumIdx3, KernelRun;
    * the reference, read element by element: RefValue.
  Only commutativity and associativity of + are used to rearrange sums, so the inputs' finiteness is never needed.
  The idealization rewrote nothing, so its correctness statement is the trivial one; the three programs' termination
  and argument preservation are the generated frames (the reference's read off its run).
-/
import proofs.«151098_j2740189134901_2_alg».proof.Defs
import proofs.«151098_j2740189134901_2_alg».proof.Proof.Gen.Kernel
import proofs.«151098_j2740189134901_2_alg».proof.Proof.Gen.Kernel.Frame
import proofs.«151098_j2740189134901_2_alg».proof.Proof.Gen.KernelIdeal
import proofs.«151098_j2740189134901_2_alg».proof.Proof.Gen.KernelIdeal.Frame
import proofs.«151098_j2740189134901_2_alg».proof.Proof.Gen.ReferenceIdeal
import proofs.«151098_j2740189134901_2_alg».proof.Proof.Gen.ReferenceIdeal.Run
import proofs.«151098_j2740189134901_2_alg».proof.Proof.Gen.ReferenceIdeal.Read
import proofs.«151098_j2740189134901_2_alg».proof.Proof.Gen.Pre_finite_inputs
import proofs.«151098_j2740189134901_2_alg».proof.Proof.KernelRun
import proofs.«151098_j2740189134901_2_alg».proof.Proof.RefValue
import Idealize.ShloMosaic.Adequacy
import Idealize.ShloMosaic.Init

noncomputable section

namespace Cert.Proof

open Idealize.ShloMosaic Idealize.SL.Sem

/-- The kernel as printed terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten in idealizing the kernel. -/
theorem preserves : Cert.preserves_Kernel_KernelIdeal := trivial

/-- From memories that agree on the two arguments, both programs end at 0 + Σ_j contrib (pred j) (target j). -/
theorem algebraic : Cert.algebraic_KernelIdeal_ReferenceIdeal := by
  intro m ρ m' ρ' _ hagree
  refine ⟨fun c => Cert.KernelIdeal.Total.result m c, Cert.KernelIdeal.Total.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.ReferenceIdeal.RefValue.result_eq,
    (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
